-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x409 : Shape := ⟨2, ![4096, 409]⟩
abbrev S4096x3687 : Shape := ⟨2, ![4096, 3687]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x409 : S_.BroadcastsInDim S4096x409 (![] : Fin 0 → Fin S4096x409.rank)
  reducesTo_S4096x409_S_d0_1 : S4096x409.ReducesTo [0, 1] S_
  bcast_S_S4096x3687 : S_.BroadcastsInDim S4096x3687 (![] : Fin 0 → Fin S4096x3687.rank)
  reducesTo_S4096x3687_S_d0_1 : S4096x3687.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x409 .f32) (main_arg2 : FVec F S4096x3687 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x409 .f32 := Host.absf main_arg1
  let main_cst_0 : FVec F S_ .f32 := constant S_ .f32 0x7F800000#32
  let main_v5 : FVec F S4096x409 .f32 := broadcastInDim S4096x409 ![] bcast_S_S4096x409 main_cst_0
  let main_v6 : IVec S4096x409 1 := cmpf .olt main_v4 main_v5
  let main_c_1 : IVec S_ 1 := constantI S_ 1 1#1
  let main_v7 : IVec S_ 1 := (fun x v => Host.reduce IntOp.andi x v reducesTo_S4096x409_S_d0_1 h_S_) main_v6 main_c_1
  let main_v8 : IVec S_ 1 := andi main_v3 main_v7
  let main_v9 : FVec F S4096x3687 .f32 := Host.absf main_arg2
  let main_cst_2 : FVec F S_ .f32 := constant S_ .f32 0x7F800000#32
  let main_v10 : FVec F S4096x3687 .f32 := broadcastInDim S4096x3687 ![] bcast_S_S4096x3687 main_cst_2
  let main_v11 : IVec S4096x3687 1 := cmpf .olt main_v9 main_v10
  let main_c_3 : IVec S_ 1 := constantI S_ 1 1#1
  let main_v12 : IVec S_ 1 := (fun x v => Host.reduce IntOp.andi x v reducesTo_S4096x3687_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x409 : Shape := ⟨2, ![4096, 409]⟩
abbrev S4096x3687 : Shape := ⟨2, ![4096, 3687]⟩
abbrev S4096 : Shape := ⟨1, ![4096]⟩
abbrev S8192x409 : Shape := ⟨2, ![8192, 409]⟩
abbrev S8192x3687 : Shape := ⟨2, ![8192, 3687]⟩
abbrev S_ : Shape := ⟨0, ![]⟩
abbrev S409 : Shape := ⟨1, ![409]⟩
abbrev S1 : Shape := ⟨1, ![1]⟩
abbrev S1x409 : Shape := ⟨2, ![1, 409]⟩
abbrev S1x4096 : Shape := ⟨2, ![1, 4096]⟩
abbrev S512x409 : Shape := ⟨2, ![512, 409]⟩
abbrev S512x3687 : Shape := ⟨2, ![512, 3687]⟩
abbrev S1x512 : Shape := ⟨2, ![1, 512]⟩
abbrev S512x512 : Shape := ⟨2, ![512, 512]⟩

abbrev nBuf : Space → Nat
  | .hbm => 25
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x409, .f32⟩
  | .hbm, ⟨2, _⟩ => ⟨S4096x3687, .f32⟩
  | .hbm, ⟨3, _⟩ => ⟨S4096, .f32⟩
  | .hbm, ⟨4, _⟩ => ⟨S8192x409, .f32⟩
  | .hbm, ⟨5, _⟩ => ⟨S8192x3687, .f32⟩
  | .hbm, ⟨6, _⟩ => ⟨S_, .f32⟩
  | .hbm, ⟨7, _⟩ => ⟨S409, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S409, .f32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S409, .f32⟩
  | .hbm, ⟨16, _⟩ => ⟨S1x409, .f32⟩
  | .hbm, ⟨17, _⟩ => ⟨S4096x409, .f32⟩
  | .hbm, ⟨18, _⟩ => ⟨S4096x409, .f32⟩
  | .hbm, ⟨19, _⟩ => ⟨S4096x409, .bf16⟩
  | .hbm, ⟨20, _⟩ => ⟨S4096x3687, .bf16⟩
  | .hbm, ⟨21, _⟩ => ⟨S8192x409, .bf16⟩
  | .hbm, ⟨22, _⟩ => ⟨S8192x3687, .bf16⟩
  | .hbm, ⟨23, _⟩ => ⟨S1x4096, .f32⟩
  | .hbm, ⟨24, _⟩ => ⟨S8192x4096, .f32⟩
  | .local _ .vmem, ⟨0, _⟩ => ⟨S512x409, .bf16⟩
  | .local _ .vmem, ⟨1, _⟩ => ⟨S512x409, .bf16⟩
  | .local _ .vmem, ⟨2, _⟩ => ⟨S512x3687, .bf16⟩
  | .local _ .vmem, ⟨3, _⟩ => ⟨S512x3687, .bf16⟩
  | .local _ .vmem, ⟨4, _⟩ => ⟨S512x409, .bf16⟩
  | .local _ .vmem, ⟨5, _⟩ => ⟨S512x409, .bf16⟩
  | .local _ .vmem, ⟨6, _⟩ => ⟨S512x3687, .bf16⟩
  | .local _ .vmem, ⟨7, _⟩ => ⟨S512x3687, .bf16⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x409 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3687 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x409 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x3687 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8192x4096_S8192x409_0_0 : S8192x4096.Slices ![0, 0] S8192x409
  slices_S8192x4096_S8192x3687_0_409 : S8192x4096.Slices ![0, 409] S8192x3687
  bcast_S_S409 : S_.BroadcastsInDim S409 (![] : Fin 0 → Fin S409.rank)
  bcast_S_S1 : S_.BroadcastsInDim S1 (![] : Fin 0 → Fin S1.rank)
  bcast_S409_S1x409_1 : S409.BroadcastsInDim S1x409 (![1] : Fin 1 → Fin S1x409.rank)
  bcast_S1x409_S4096x409_0_1 : S1x409.BroadcastsInDim S4096x409 (![0, 1] : Fin 2 → Fin S4096x409.rank)
  bitsLt_bf16_f32 : FTy.bits .bf16 < FTy.bits .f32
  shapeCasts_S4096_S1x4096 : S4096.ShapeCasts S1x4096
  inb_S512x409_S512x409_0_0 : ∀ a, (![0, 0] : Fin 2 → Nat) a + S512x409.size a ≤ S512x409.size a
  h_S512x409 : 0 < S512x409.numel
  shapeCasts_S512x409_S512x409 : S512x409.ShapeCasts S512x409
  inb_S512x3687_S512x3687_0_0 : ∀ a, (![0, 0] : Fin 2 → Nat) a + S512x3687.size a ≤ S512x3687.size a
  h_S512x3687 : 0 < S512x3687.numel
  shapeCasts_S512x3687_S512x3687 : S512x3687.ShapeCasts S512x3687
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  scatter_S409_S1_S__n_0_0_0_wf : ScatterDims.WF S409 S1 S_ [] [0] [0] 0
  dot_S512x409_S512x409_S512x512_1_1_0_0_n_n_wf : DotDims.WF S512x409 S512x409 S512x512 [1] [1] [0] [0] [] []
  dot_S512x3687_S512x3687_S512x512_1_1_0_0_n_n_wf : DotDims.WF S512x3687 S512x3687 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x409.size a ≤ S8192x409.size a
  hwx0_0 : ∀ i : grid0.Coords, EltTy.bits .bf16 = 32 ∨ (Rect.block (s := S8192x409) S512x409.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3687.size a ≤ S8192x3687.size a
  hwx0_1 : ∀ i : grid0.Coords, EltTy.bits .bf16 = 32 ∨ (Rect.block (s := S8192x3687) S512x3687.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x409.size a ≤ S4096x409.size a
  hwx0_2 : ∀ i : grid0.Coords, EltTy.bits .bf16 = 32 ∨ (Rect.block (s := S4096x409) S512x409.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3687.size a ≤ S4096x3687.size a
  hwx0_3 : ∀ i : grid0.Coords, EltTy.bits .bf16 = 32 ∨ (Rect.block (s := S4096x3687) S512x3687.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def scatter_S409_S1_S__n_0_0_0 : ScatterDims S409 S1 S_ where
  updateWindowDims := []
  insertedWindowDims := [0]
  scatterDimsToOperandDims := [0]
  indexVectorDim := 0
  wf := scatter_S409_S1_S__n_0_0_0_wf
def dot_S512x409_S512x409_S512x512_1_1_0_0_n_n : DotDims S512x409 S512x409 S512x512 where
  lhsContracting := [1]
  rhsContracting := [1]
  lhsNonContracting := [0]
  rhsNonContracting := [0]
  lhsBatch := []
  rhsBatch := []
  wf := dot_S512x409_S512x409_S512x512_1_1_0_0_n_n_wf
def dot_S512x3687_S512x3687_S512x512_1_1_0_0_n_n : DotDims S512x3687 S512x3687 S512x512 where
  lhsContracting := [1]
  rhsContracting := [1]
  lhsNonContracting := [0]
  rhsNonContracting := [0]
  lhsBatch := []
  rhsBatch := []
  wf := dot_S512x3687_S512x3687_S512x512_1_1_0_0_n_n_wf

abbrev win0_0 : Pipeline.Window sig grid0 :=
  Pipeline.Window.ofSpec (Memref.whole main_v12) S512x409.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x3687.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x409.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x3687.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x409 : Shape := ⟨2, ![4096, 409]⟩
abbrev S4096x3687 : Shape := ⟨2, ![4096, 3687]⟩
abbrev S4096 : Shape := ⟨1, ![4096]⟩
abbrev S8192x409 : Shape := ⟨2, ![8192, 409]⟩
abbrev S8192x3687 : Shape := ⟨2, ![8192, 3687]⟩
abbrev S3687x4096 : Shape := ⟨2, ![3687, 4096]⟩
abbrev S1x4096 : Shape := ⟨2, ![1, 4096]⟩
abbrev S_ : Shape := ⟨0, ![]⟩
abbrev S409 : Shape := ⟨1, ![409]⟩
abbrev S1 : Shape := ⟨1, ![1]⟩
abbrev S1x409 : Shape := ⟨2, ![1, 409]⟩
abbrev S409x4096 : Shape := ⟨2, ![409, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x409, .f32⟩
  | .hbm, ⟨2, _⟩ => ⟨S4096x3687, .f32⟩
  | .hbm, ⟨3, _⟩ => ⟨S4096, .f32⟩
  | .hbm, ⟨4, _⟩ => ⟨S8192x409, .f32⟩
  | .hbm, ⟨5, _⟩ => ⟨S8192x3687, .f32⟩
  | .hbm, ⟨6, _⟩ => ⟨S3687x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S409, .f32⟩
  | .hbm, ⟨24, _⟩ => ⟨S_, .i32⟩
  | .hbm, ⟨25, _⟩ => ⟨S1, .i32⟩
  | .hbm, ⟨26, _⟩ => ⟨S_, .f32⟩
  | .hbm, ⟨27, _⟩ => ⟨S409, .f32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S409, .f32⟩
  | .hbm, ⟨32, _⟩ => ⟨S1x409, .f32⟩
  | .hbm, ⟨33, _⟩ => ⟨S8192x409, .f32⟩
  | .hbm, ⟨34, _⟩ => ⟨S8192x409, .f32⟩
  | .hbm, ⟨35, _⟩ => ⟨S409x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S8192x4096_S8192x409_0_0 : S8192x4096.Slices ![0, 0] S8192x409
  slices_S8192x4096_S8192x3687_0_409 : S8192x4096.Slices ![0, 409] S8192x3687
  transposes_S4096x3687_S3687x4096_1_0 : S4096x3687.Transposes [1, 0] S3687x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S409 : S_.BroadcastsInDim S409 (![] : Fin 0 → Fin S409.rank)
  bcast_S_S1 : S_.BroadcastsInDim S1 (![] : Fin 0 → Fin S1.rank)
  bcast_S409_S1x409_1 : S409.BroadcastsInDim S1x409 (![1] : Fin 1 → Fin S1x409.rank)
  bcast_S1x409_S8192x409_0_1 : S1x409.BroadcastsInDim S8192x409 (![0, 1] : Fin 2 → Fin S8192x409.rank)
  transposes_S4096x409_S409x4096_1_0 : S4096x409.Transposes [1, 0] S409x4096
  dot_S8192x3687_S3687x4096_S8192x4096_1_0_0_1_n_n_wf : DotDims.WF S8192x3687 S3687x4096 S8192x4096 [1] [0] [0] [1] [] []
  scatter_S409_S1_S__n_0_0_0_wf : ScatterDims.WF S409 S1 S_ [] [0] [0] 0
  dot_S8192x409_S409x4096_S8192x4096_1_0_0_1_n_n_wf : DotDims.WF S8192x409 S409x4096 S8192x4096 [1] [0] [0] [1] [] []

variable [Facts₀]

def dot_S8192x3687_S3687x4096_S8192x4096_1_0_0_1_n_n : DotDims S8192x3687 S3687x4096 S8192x4096 where
  lhsContracting := [1]
  rhsContracting := [0]
  lhsNonContracting := [0]
  rhsNonContracting := [1]
  lhsBatch := []
  rhsBatch := []
  wf := dot_S8192x3687_S3687x4096_S8192x4096_1_0_0_1_n_n_wf
def scatter_S409_S1_S__n_0_0_0 : ScatterDims S409 S1 S_ where
  updateWindowDims := []
  insertedWindowDims := [0]
  scatterDimsToOperandDims := [0]
  indexVectorDim := 0
  wf := scatter_S409_S1_S__n_0_0_0_wf
def dot_S8192x409_S409x4096_S8192x4096_1_0_0_1_n_n : DotDims S8192x409 S409x4096 S8192x4096 where
  lhsContracting := [1]
  rhsContracting := [0]
  lhsNonContracting := [0]
  rhsNonContracting := [1]
  lhsBatch := []
  rhsBatch := []
  wf := dot_S8192x409_S409x4096_S8192x4096_1_0_0_1_n_n_wf

class Facts : Prop extends Facts₀ where

variable [Facts]
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.LibRealSums.lean ====
/-
  Finite sums of extended reals that are real numbers.

  On the extended reals a product does not distribute over a sum in general (at an infinity the
  sum may absorb a term). Where every entry is a real number it does: the coercion from the reals
  is additive and multiplicative, so a finite sum of real entries is the real sum, a real factor
  moves in and out of it, and a product of three real matrices may be bracketed either way,
  entry by entry.
-/
import Mathlib.Data.EReal.Basic
import Mathlib.Data.EReal.Operations
import Mathlib.Algebra.BigOperators.Ring.Finset
import Mathlib.Algebra.BigOperators.Fin

namespace Cert.Lib.RealSums

open scoped BigOperators

/-- An extended real that is a real number: neither infinity. -/
def IsReal (x : EReal) : Prop := ∃ r : ℝ, x = (r : EReal)

theorem isReal_coe (r : ℝ) : IsReal (r : EReal) := ⟨r, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem isReal_zero : IsReal 0 := ⟨0, by simp⟩
theorem isReal_one : IsReal 1 := ⟨1, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rwa [max_eq_right h]
  · rwa [max_eq_left h]

/-- The coercion from the reals carries a finite sum to the finite sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of real entries is a real number. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- Entries that are all real are the coercions of one real family. -/
theorem exists_real_family {ι : Type*} (f : ι → EReal) (hf : ∀ i, IsReal (f i)) :
    ∃ g : ι → ℝ, ∀ i, f i = (g i : EReal) := ⟨fun i => (hf i).choose, fun i => (hf i).choose_spec⟩

/-- A real factor moves into a finite sum of real entries. -/
theorem mul_sum {ι : Type*} (s : Finset ι) (a : EReal) (f : ι → EReal) (ha : IsReal a)
    (hf : ∀ i, IsReal (f i)) : a * ∑ i ∈ s, f i = ∑ i ∈ s, a * f i := by
  obtain ⟨r, rfl⟩ := ha
  obtain ⟨g, hg⟩ := exists_real_family f hf
  simp only [hg, coe_sum, ← EReal.coe_mul, Finset.mul_sum]

/-- A real factor moves into a finite sum of real entries, from the right. -/
theorem sum_mul {ι : Type*} (s : Finset ι) (a : EReal) (f : ι → EReal) (ha : IsReal a)
    (hf : ∀ i, IsReal (f i)) : (∑ i ∈ s, f i) * a = ∑ i ∈ s, f i * a := by
  obtain ⟨r, rfl⟩ := ha
  obtain ⟨g, hg⟩ := exists_real_family f hf
  simp only [hg, coe_sum, ← EReal.coe_mul, Finset.sum_mul]

/-- Three real matrices: the product may be bracketed either way, entry by entry.
    `∑ j, (∑ k, h k * z k j) * w j = ∑ k, h k * ∑ j, z k j * w j` for one row `h` and one column `w`. -/
theorem dot_assoc {κ ι : Type*} [Fintype κ] [Fintype ι] (h : κ → EReal) (z : κ → ι → EReal) (w : ι → EReal)
    (hh : ∀ k, IsReal (h k)) (hz : ∀ k j, IsReal (z k j)) (hw : ∀ j, IsReal (w j)) :
    ∑ j, (∑ k, h k * z k j) * w j = ∑ k, h k * ∑ j, z k j * w j := by
  obtain ⟨h', eh⟩ := exists_real_family h hh
  obtain ⟨w', ew⟩ := exists_real_family w hw
  have ez : ∀ k, ∃ g : ι → ℝ, ∀ j, z k j = (g j : EReal) := fun k => exists_real_family (z k) (hz k)
  choose z' ez' using ez
  simp only [eh, ew, ez', ← EReal.coe_mul, coe_sum]
  congr 1
  simp only [Finset.sum_mul, Finset.mul_sum]
  rw [Finset.sum_comm]
  exact Finset.sum_congr rfl fun k _ => Finset.sum_congr rfl fun j _ => by ring

/-- A real row against a sum of two real columns. -/
theorem dot_add {κ : Type*} [Fintype κ] (h a b : κ → EReal)
    (hh : ∀ k, IsReal (h k)) (ha : ∀ k, IsReal (a k)) (hb : ∀ k, IsReal (b k)) :
    ∑ k, h k * (a k + b k) = ∑ k, h k * a k + ∑ k, h k * b k := by
  obtain ⟨h', eh⟩ := exists_real_family h hh
  obtain ⟨a', ea⟩ := exists_real_family a ha
  obtain ⟨b', eb⟩ := exists_real_family b hb
  simp only [eh, ea, eb, ← EReal.coe_add, ← EReal.coe_mul, coe_sum]
  congr 1
  rw [← Finset.sum_add_distrib]
  exact Finset.sum_congr rfl fun k _ => by ring

end Cert.Lib.RealSums
-- ==== Proof.Consts.lean ====
/-
  The two float literals whose VALUES the argument uses, as extended reals: the pattern of `1.0` denotes 1, and the
  pattern of `2.0` — the exponent of the reference's power — denotes the real number 2. (The third literal of the two
  programs, `0.25`, stands in the same place on both sides and is never evaluated.)
-/
import Idealize.ShloMosaic.PureOps.Ideal

noncomputable section

namespace Cert.HillConsts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `2.0` denotes the real number `2`. -/
theorem ofBits_two : Ideal.ofBits .f32 0x40000000#32 = ((2 : ℝ) : EReal) := by
  simp [Ideal.ofBits, Ideal.ieee, -EReal.coe_mul]; norm_num

end Cert.HillConsts

end
-- ==== Proof.Hill.lean ====
/-
  The function both programs compute, and the laws that join their two spellings of it.

  For a batch row `r` and an output unit `c`:
    cluster r c = Σ k < 409,  x[r, k] · (Wc[c, k] · coeff[k])          (the clustering synapses, weighted)
    drive   r c = Σ k < 3687, x[r, 409 + k] · Wn[c, k]  +  b[c]         (the other synapses, affine)
    pre     r c = cluster r c + (logistic (drive r c) − 1)
    out     r c = pre² / (¼ + pre²)                                      (the Hill response, exponent 2)
  One program multiplies the coefficient into the weights (x · (Wc · coeff)), the other into the inputs
  ((x · coeff) · Wc): products of extended reals commute and associate, so the two sums agree term by term, with no
  finiteness needed. One program writes the logistic function as 1 / (1 + e^(−v)): that is its definition. One program
  squares by multiplying, the other by raising to the power 2: these agree at every REAL number and at +∞, but not at −∞
  (the power keeps −∞, the product gives +∞). So the last step needs `pre` to be a real number, which holds when the inputs
  `x`, the clustering weights and the coefficients are real: the cluster sum is then a finite sum of real products, and the
  logistic function takes only real values (0 at −∞, 1 at +∞).
-/
import Idealize.ShloMosaic.PureOps.Ideal
import Idealize.ShloMosaic.Lib.ValueIdx
import proofs.«122936_j68178310856894_1_alg».proof.Proof.LibRealSums
import proofs.«122936_j68178310856894_1_alg».proof.Proof.Consts

noncomputable section

open scoped BigOperators

namespace Cert.Hill

open Idealize.ShloMosaic Idealize.ShloMosaic.ValueIdx Cert.Lib.RealSums

/-! ## The scalar functions -/

/-- The literal `0.25` of both programs, never evaluated. -/
abbrev quarter : EReal := Ideal.ofBits .f32 0x3E800000#32

/-- The Hill response with the square written as a product: p·p / (¼ + p·p). -/
def hill (p : EReal) : EReal := Ideal.div (p * p) (quarter + p * p)

/-- The same with the square written as the power with exponent `2.0`. -/
def hillPow (p : EReal) : EReal :=
  Ideal.div (Ideal.pow p (Ideal.ofBits .f32 0x40000000#32)) (quarter + Ideal.pow p (Ideal.ofBits .f32 0x40000000#32))

/-- At a real number the power with exponent 2 is the product with itself. -/
theorem pow_two_of_isReal {p : EReal} (hp : IsReal p) : Ideal.pow p (Ideal.ofBits .f32 0x40000000#32) = p * p := by
  obtain ⟨r, rfl⟩ := hp
  rw [Cert.HillConsts.ofBits_two, Ideal.pow_coe_coe, ← EReal.coe_mul]
  congr 1
  show r ^ (2 : ℝ) = r * r
  rw [Real.rpow_two, sq]

/-- So at a real pre-activation the two spellings of the Hill response agree. -/
theorem hillPow_of_isReal {p : EReal} (hp : IsReal p) : hillPow p = hill p := by
  unfold hillPow hill
  rw [pow_two_of_isReal hp]

/-- The logistic function takes only real values: 0 at −∞, 1 at +∞, 1 / (1 + e^(−r)) at a real r. -/
theorem isReal_logistic (v : EReal) : IsReal (Ideal.logistic v) := by
  induction v using EReal.rec with
  | bot => rw [Ideal.logistic_bot]; exact isReal_zero
  | top => rw [Ideal.logistic_top]; exact isReal_one
  | coe r => rw [Ideal.logistic_coe]; exact isReal_coe _

/-! ## The function of the arrays -/

section Arrays

variable (x : (⟨2, ![8192, 4096]⟩ : Shape).Idx → EReal) (wc : (⟨2, ![4096, 409]⟩ : Shape).Idx → EReal)
  (wn : (⟨2, ![4096, 3687]⟩ : Shape).Idx → EReal) (b : (⟨1, ![4096]⟩ : Shape).Idx → EReal)
  (cf : (⟨1, ![409]⟩ : Shape).Idx → EReal)

/-- Column `k` of the clustering part of `x`: its first 409 columns. -/
abbrev colC (k : Fin 409) : Fin 4096 := ⟨k.val, by have := k.isLt; omega⟩
/-- Column `k` of the other part of `x`: the 3687 columns from 409 on. -/
abbrev colN (k : Fin 3687) : Fin 4096 := ⟨409 + k.val, by have := k.isLt; omega⟩

/-- The weighted sum over the clustering synapses, the coefficient multiplied into the weight. -/
def cluster (r : Fin 8192) (c : Fin 4096) : EReal := ∑ k : Fin 409, x (ix2 r (colC k)) * (wc (ix2 c k) * cf (ix1 k))

/-- The same with the coefficient multiplied into the input. -/
def clusterIn (r : Fin 8192) (c : Fin 4096) : EReal := ∑ k : Fin 409, (x (ix2 r (colC k)) * cf (ix1 k)) * wc (ix2 c k)

/-- The affine drive of the other synapses. -/
def drive (r : Fin 8192) (c : Fin 4096) : EReal := (∑ k : Fin 3687, x (ix2 r (colN k)) * wn (ix2 c k)) + b (ix1 c)

/-- The pre-activation. -/
def pre (r : Fin 8192) (c : Fin 4096) : EReal := cluster x wc cf r c + (Ideal.logistic (drive x wn b r c) - 1)

/-- The result array: the Hill response of the pre-activation, index by index. -/
def out : (⟨2, ![8192, 4096]⟩ : Shape).Idx → EReal := fun i => hill (pre x wc wn b cf (i 0) (i 1))

/-- The result array in the other spelling: coefficient into the input, logistic written out, square as a power. -/
def outPow : (⟨2, ![8192, 4096]⟩ : Shape).Idx → EReal := fun i =>
  hillPow (clusterIn x wc cf (i 0) (i 1) + (Ideal.div 1 (1 + Ideal.exp (-(drive x wn b (i 0) (i 1)))) - 1))

/-- Where the coefficient is multiplied in does not matter: products of extended reals commute and associate. -/
theorem clusterIn_eq (r : Fin 8192) (c : Fin 4096) : clusterIn x wc cf r c = cluster x wc cf r c := by
  unfold clusterIn cluster
  exact Finset.sum_congr rfl fun k _ => by rw [mul_assoc, mul_comm (cf (ix1 k))]

/-- With real inputs, clustering weights and coefficients the pre-activation is a real number. -/
theorem isReal_pre (hx : ∀ i, IsReal (x i)) (hwc : ∀ i, IsReal (wc i)) (hcf : ∀ i, IsReal (cf i))
    (r : Fin 8192) (c : Fin 4096) : IsReal (pre x wc wn b cf r c) := by
  unfold pre cluster
  exact (isReal_sum _ _ fun k _ => (hx _).mul ((hwc _).mul (hcf _))).add ((isReal_logistic _).sub isReal_one)

/-- THE LAW: with real inputs, clustering weights and coefficients the two spellings are one array. -/
theorem outPow_eq_out (hx : ∀ i, IsReal (x i)) (hwc : ∀ i, IsReal (wc i)) (hcf : ∀ i, IsReal (cf i)) :
    outPow x wc wn b cf = out x wc wn b cf := by
  funext i
  have hc : clusterIn x wc cf (i 0) (i 1) = cluster x wc cf (i 0) (i 1) := clusterIn_eq x wc cf _ _
  have hp : IsReal (pre x wc wn b cf (i 0) (i 1)) := isReal_pre x wc wn b cf hx hwc hcf _ _
  show hillPow (clusterIn x wc cf (i 0) (i 1) + (Ideal.logistic (drive x wn b (i 0) (i 1)) - 1))
    = hill (pre x wc wn b cf (i 0) (i 1))
  exact (congrArg (fun z => hillPow (z + (Ideal.logistic (drive x wn b (i 0) (i 1)) - 1))) hc).trans
    (hillPow_of_isReal hp)

end Arrays

end Cert.Hill

end
-- ==== Proof.KernelPayload.lean ====
/-
  What the kernel's body stores, read at one element of its block.

  The body takes a [512, 409] block of clustering inputs `a`, a [512, 3687] block of the other inputs `d`, a [512, 409]
  block of (already weighted) clustering weights `u`, a [512, 3687] block of the other weights `w` and a [1, 512] piece of
  the bias `β`, and stores, at row `p` and column `q` of its [512, 512] block, the Hill response of
    Σ k < 409, a[p, k] · u[q, k]  +  (logistic (Σ k < 3687, d[p, k] · w[q, k] + β[0, q]) − 1).
  Both matrix products contract the second axis of both operands (a row of inputs against a row of weights) into a zero
  accumulator; the bias piece is broadcast down the rows.
-/
import proofs.«122936_j68178310856894_1_alg».proof.Proof.Gen.KernelIdeal.Skeleton
import proofs.«122936_j68178310856894_1_alg».proof.Proof.LibDotTransposed
import proofs.«122936_j68178310856894_1_alg».proof.Proof.Hill
import Idealize.ShloMosaic.Lib.Pipeline.Value
import Idealize.ShloMosaic.Lib.ValueIdx
import Idealize.ShloMosaic.PureOps.Ideal.Laws

noncomputable section

open scoped BigOperators

namespace Cert.Hill.Kernel

open Cert.KernelIdeal Cert.KernelIdeal.Gen Idealize.ShloMosaic Idealize.ShloMosaic.ValueIdx Cert.Hill

/-! ## The two products' free axes -/

local notation "dotC" => dot_S512x409_S512x409_S512x512_1_1_0_0_n_n
local notation "dotN" => dot_S512x3687_S512x3687_S512x512_1_1_0_0_n_n

/-- In the clustering product the left operand's row is the output's row … -/
theorem dotC_l0 (j : S512x512.Idx) (q : (dotC).contr.Idx) : ((dotC).lhsIdx j q 0).val = (j 0).val := by
  unfold DotDims.lhsIdx
  rw [dif_neg (show ¬(0 : Fin S512x409.rank) ∈ (dotC).lhsBatch by decide),
    dif_pos (show (0 : Fin S512x409.rank) ∈ (dotC).lhsNonContracting by decide)]
  rfl
/-- … and the right operand's row is the output's column. -/
theorem dotC_r0 (j : S512x512.Idx) (q : (dotC).contr.Idx) : ((dotC).rhsIdx j q 0).val = (j 1).val := by
  unfold DotDims.rhsIdx
  rw [dif_neg (show ¬(0 : Fin S512x409.rank) ∈ (dotC).rhsBatch by decide),
    dif_pos (show (0 : Fin S512x409.rank) ∈ (dotC).rhsNonContracting by decide)]
  rfl
/-- The same for the other product. -/
theorem dotN_l0 (j : S512x512.Idx) (q : (dotN).contr.Idx) : ((dotN).lhsIdx j q 0).val = (j 0).val := by
  unfold DotDims.lhsIdx
  rw [dif_neg (show ¬(0 : Fin S512x3687.rank) ∈ (dotN).lhsBatch by decide),
    dif_pos (show (0 : Fin S512x3687.rank) ∈ (dotN).lhsNonContracting by decide)]
  rfl
theorem dotN_r0 (j : S512x512.Idx) (q : (dotN).contr.Idx) : ((dotN).rhsIdx j q 0).val = (j 1).val := by
  unfold DotDims.rhsIdx
  rw [dif_neg (show ¬(0 : Fin S512x3687.rank) ∈ (dotN).rhsBatch by decide),
    dif_pos (show (0 : Fin S512x3687.rank) ∈ (dotN).rhsNonContracting by decide)]
  rfl

/-! ## The stored value at (p, q) -/

/-- THE BODY'S STORED VALUE at row `p`, column `q` of the block. -/
theorem payload_apply (a : Vec Ideal S512x409 .bf16) (d : Vec Ideal S512x3687 .bf16) (u : Vec Ideal S512x409 .bf16)
    (w : Vec Ideal S512x3687 .bf16) (β : Vec Ideal S1x512 .f32) (p q : Fin 512) :
    k0_pay1 (F := Ideal) a d u w β (ix2 p q)
      = hill ((∑ k : Fin 409, a (ix2 p k) * u (ix2 q k))
          + (Ideal.logistic ((∑ k : Fin 3687, d (ix2 p k) * w (ix2 q k)) + β (ix2 (0 : Fin 1) q)) - 1)) := by
  have hC : FloatOps.matmul (φ₁ := .bf16) (φ₂ := .bf16) (dotC) none a u (constant (F := Ideal) S512x512 .f32 0x00000000#32) (ix2 p q)
      = ∑ k : Fin 409, a (ix2 p k) * u (ix2 q k) :=
    Cert.LibDotTransposed.matmul_zero_apply (φ₁ := .bf16) (φ₂ := .bf16) (dotC) rfl rfl dotC_l0 dotC_r0 rfl rfl none a u p q
  have hN : FloatOps.matmul (φ₁ := .bf16) (φ₂ := .bf16) (dotN) none d w (constant (F := Ideal) S512x512 .f32 0x00000000#32) (ix2 p q)
      = ∑ k : Fin 3687, d (ix2 p k) * w (ix2 q k) :=
    Cert.LibDotTransposed.matmul_zero_apply (φ₁ := .bf16) (φ₂ := .bf16) (dotN) rfl rfl dotN_l0 dotN_r0 rfl rfl none d w p q
  have hB : broadcastTo S512x512 β broadcasts_S1x512_S512x512 (ix2 p q) = β (ix2 (0 : Fin 1) q) :=
    broadcastTo_apply β broadcasts_S1x512_S512x512 (ix2 p q) (ix2 (0 : Fin 1) q) (fun a => by
      match a with
      | ⟨0, _⟩ => rfl
      | ⟨1, _⟩ => rfl)
  unfold k0_pay1
  simp only [shapeCast_self, divf_apply, mulf_apply, addf_apply, subf_apply, broadcast_apply, logistic, matmul, hC, hN,
    hB, Ideal.logistic_def, Ideal.ofBits_def, Cert.HillConsts.ofBits_one]
  rfl

end Cert.Hill.Kernel

end
-- ==== Proof.LibScatterSet.lean ====
/-
  A scatter whose body returns the update (an `x.at[i].set(v)`) keeps every property that holds of all the operand's
  entries and of all the updates.

  The scatter is a left fold over the update positions; each step either leaves the array as it is (the update lands
  outside the operand and is dropped) or replaces ONE entry by an update. So if a property holds of every entry before
  a step and of every update, it holds of every entry after it, and by induction along the fold of every entry of the
  result — whatever the indices are, in range or not, repeated or not. Shapes, dimension numbers and index width are
  arbitrary.
-/
import Idealize.ShloMosaic.PureOps.ShapeOps

namespace Cert.LibScatterSet

open Idealize.ShloMosaic

/-- A property of the accumulator that every step of a left fold preserves holds after the fold. -/
theorem foldl_preserves {β γ : Type} (Q : β → Prop) (f : β → γ → β) (hf : ∀ r n, Q r → Q (f r n)) :
    ∀ (L : List γ) (r : β), Q r → Q (L.foldl f r)
  | [], _, h => h
  | n :: L, r, h => foldl_preserves Q f hf L (f r n) (hf r n h)

/-- Every entry of a "set" scatter's result has a property that all entries of the operand and all updates have. -/
theorem scatter_set_forall {α : Type} {s si u : Shape} {w : Nat} (P : α → Prop) (d : ScatterDims s si u)
    (x : s.Idx → α) (idx : IVec si w) (upd : u.Idx → α) (hx : ∀ i, P (x i)) (hu : ∀ j, P (upd j)) (i : s.Idx) :
    P (Host.scatter d (fun _ b => b) x idx upd i) := by
  unfold Host.scatter
  refine foldl_preserves (fun r : s.Idx → α => ∀ i, P (r i)) _ (fun r n hr i' => ?_) _ x hx i
  dsimp only
  generalize d.resultIdx? (u.rowMajor.symm n) idx = o
  cases o with
  | none => exact hr i'
  | some i0 =>
    show P (if i' = i0 then upd (u.rowMajor.symm n) else r i')
    split
    · exact hu _
    · exact hr i'

end Cert.LibScatterSet
-- ==== Proof.Coeff.lean ====
/-
  The coefficient vector of the clustering synapses: 409 entries, all `2.0`, then entry 0 set to `1.0`, then entry 408
  set to `1.0` — built, in both programs, by two scatters of one scalar into a vector. Which entries end at 1 and which
  at 2 plays no part in the argument (the same vector weights both programs' sums); what is used is that every entry is
  a real number: the fill value and both updates are, and a "set" scatter only moves entries.
-/
import Idealize.ShloMosaic.PureOps.ShapeOps
import Idealize.ShloMosaic.PureOps.Ideal
import proofs.«122936_j68178310856894_1_alg».proof.Proof.LibRealSums
import proofs.«122936_j68178310856894_1_alg».proof.Proof.LibScatterSet
import proofs.«122936_j68178310856894_1_alg».proof.Proof.Consts

noncomputable section

namespace Cert.Hill

open Idealize.ShloMosaic Cert.Lib.RealSums

/-- The dimension numbers of setting one scalar into a vector of 409 at one position. -/
def setDims : ScatterDims ⟨1, ![409]⟩ ⟨1, ![1]⟩ ⟨0, ![]⟩ where
  updateWindowDims := []
  insertedWindowDims := [0]
  scatterDimsToOperandDims := [0]
  indexVectorDim := 0

/-- The coefficient vector. -/
def coeff : (⟨1, ![409]⟩ : Shape).Idx → EReal :=
  Host.scatter setDims (fun _ b => b)
    (Host.scatter setDims (fun _ b => b) (fun _ => Ideal.ofBits .f32 0x40000000#32) (fun _ => (0#32 : BitVec 32))
      (fun _ => Ideal.ofBits .f32 0x3F800000#32))
    (fun _ => (408#32 : BitVec 32)) (fun _ => Ideal.ofBits .f32 0x3F800000#32)

/-- Every coefficient is a real number. -/
theorem isReal_coeff (k : (⟨1, ![409]⟩ : Shape).Idx) : IsReal (coeff k) := by
  have h1 : IsReal (Ideal.ofBits .f32 0x3F800000#32) := by rw [Cert.HillConsts.ofBits_one]; exact isReal_one
  have h2 : IsReal (Ideal.ofBits .f32 0x40000000#32) := by rw [Cert.HillConsts.ofBits_two]; exact isReal_coe _
  unfold coeff
  exact Cert.LibScatterSet.scatter_set_forall IsReal _ _ _ _
    (Cert.LibScatterSet.scatter_set_forall IsReal _ _ _ _ (fun _ => h2) (fun _ => h1)) (fun _ => h1) k

end Cert.Hill

end
-- ==== Proof.KernelArrays.lean ====
/-
  What the kernel's five input arrays hold when its region is entered, entry by entry, in terms of the program's
  arguments `x`, `Wc`, `Wn`, `b`.

  Before the region the program slices `x` into its first 409 columns and its other 3687 columns, multiplies each row of
  `Wc` by the coefficient vector, narrows the float format of these and of `Wn` (the identity on extended reals) and
  views `b` as a one-row matrix. So
    xc[r, k] = x[r, k],  xn[r, k] = x[r, 409 + k],  wc'[c, k] = Wc[c, k] · coeff[k],  wn'[c, k] = Wn[c, k],  b'[0, c] = b[c].
-/
import proofs.«122936_j68178310856894_1_alg».proof.Proof.Gen.KernelIdeal.Frame
import proofs.«122936_j68178310856894_1_alg».proof.Proof.Coeff
import proofs.«122936_j68178310856894_1_alg».proof.Proof.Hill
import Idealize.ShloMosaic.Lib.Pipeline.Value
import Idealize.ShloMosaic.Lib.ValueIdx
import Idealize.ShloMosaic.Lib.StableHlo.Run

noncomputable section

namespace Cert.Hill.Kernel

open Cert.KernelIdeal Cert.KernelIdeal.Gen Idealize.ShloMosaic Idealize.ShloMosaic.TcCoe Idealize.ShloMosaic.ValueIdx
open Idealize.SL.Sem Idealize.ShloMosaic.StableHlo Cert.Hill

variable (m : (ℓ : Loc nD τ sig) → Buf (Elt Ideal) ℓ)

/-- The four arguments on a core, as arrays of extended reals. -/
abbrev argX (c : Dev nD) : S8192x4096.Idx → EReal := m ((c : Thread nD τ).loc main_arg0)
abbrev argWc (c : Dev nD) : S4096x409.Idx → EReal := m ((c : Thread nD τ).loc main_arg1)
abbrev argWn (c : Dev nD) : S4096x3687.Idx → EReal := m ((c : Thread nD τ).loc main_arg2)
abbrev argB (c : Dev nD) : S4096.Idx → EReal := m ((c : Thread nD τ).loc main_arg3)

/-- The clustering inputs: the first 409 columns of `x`. -/
theorem entry_xc (c : Dev nD) (r : Fin 8192) (k : Fin 409) :
    (V m c main_v12 : S8192x409.Idx → EReal) (ix2 r k)
      = (argX m c) (ix2 r (colC k)) := by
  have e : (V m c main_v12 : S8192x409.Idx → EReal)
      = truncf (F := Ideal) .bf16 (extractStridedSlice S8192x409 ![0, 0]
          (argX m c) slices_S8192x4096_S8192x409_0_0) bitsLt_bf16_f32 := by
    dsimp only [V, hostOps0]; after_results
  rw [e, truncf_apply]
  exact extractStridedSlice_apply _ _ _ (ix2 r k) (ix2 r (colC k)) (fun a => by
    match a with
    | ⟨0, _⟩ => show r.val = 0 + r.val; omega
    | ⟨1, _⟩ => show k.val = 0 + k.val; omega)

/-- The other inputs: the columns of `x` from 409 on. -/
theorem entry_xn (c : Dev nD) (r : Fin 8192) (k : Fin 3687) :
    (V m c main_v13 : S8192x3687.Idx → EReal) (ix2 r k)
      = (argX m c) (ix2 r (colN k)) := by
  have e : (V m c main_v13 : S8192x3687.Idx → EReal)
      = truncf (F := Ideal) .bf16 (extractStridedSlice S8192x3687 ![0, 409]
          (argX m c) slices_S8192x4096_S8192x3687_0_409) bitsLt_bf16_f32 := by
    dsimp only [V, hostOps0]; after_results
  rw [e, truncf_apply]
  exact extractStridedSlice_apply _ _ _ (ix2 r k) (ix2 r (colN k)) (fun a => by
    match a with
    | ⟨0, _⟩ => show r.val = 0 + r.val; omega
    | ⟨1, _⟩ => show 409 + k.val = 409 + k.val; rfl)

/-- The clustering weights, each row multiplied by the coefficient vector. -/
theorem entry_wc (c : Dev nD) (j : Fin 4096) (k : Fin 409) :
    (V m c main_v10 : S4096x409.Idx → EReal) (ix2 j k)
      = (argWc m c) (ix2 j k) * coeff (ix1 k) := by
  have e : (V m c main_v10 : S4096x409.Idx → EReal)
      = truncf (F := Ideal) .bf16 (mulf (F := Ideal) (argWc m c)
          (broadcastInDim S4096x409 ![0, 1] bcast_S1x409_S4096x409_0_1
            (broadcastInDim S1x409 ![1] bcast_S409_S1x409_1 coeff))) bitsLt_bf16_f32 := by
    dsimp only [V, hostOps0]; after_results; rfl
  rw [e, truncf_apply, mulf_apply]
  congr 1
  refine (broadcastInDim_apply _ bcast_S1x409_S4096x409_0_1 _ (ix2 j k) (ix2 (0 : Fin 1) k) (fun a => by
    match a with
    | ⟨0, _⟩ => show 0 = if (1 : Nat) = 1 then 0 else j.val; rw [if_pos rfl]
    | ⟨1, _⟩ => show k.val = if (409 : Nat) = 1 then 0 else k.val; rw [if_neg (by decide)])).trans ?_
  exact broadcastInDim_apply _ bcast_S409_S1x409_1 coeff (ix2 (0 : Fin 1) k) (ix1 k) (fun a => by
    match a with
    | ⟨0, _⟩ => show k.val = if (409 : Nat) = 1 then 0 else k.val; rw [if_neg (by decide)])

/-- The other weights, unchanged. -/
theorem entry_wn (c : Dev nD) (j : Fin 4096) (k : Fin 3687) :
    (V m c main_v11 : S4096x3687.Idx → EReal) (ix2 j k)
      = (argWn m c) (ix2 j k) := by
  have e : (V m c main_v11 : S4096x3687.Idx → EReal)
      = truncf (F := Ideal) .bf16 (argWn m c) bitsLt_bf16_f32 := by
    dsimp only [V, hostOps0]; after_results
  rw [e, truncf_apply]

/-- The bias as a one-row matrix. -/
theorem entry_b (c : Dev nD) (j : Fin 4096) :
    (V m c main_v14 : S1x4096.Idx → EReal) (ix2 (0 : Fin 1) j)
      = (argB m c) (ix1 j) := by
  have e : (V m c main_v14 : S1x4096.Idx → EReal)
      = shapeCast S1x4096 (argB m c) shapeCasts_S4096_S1x4096 := by
    dsimp only [V, hostOps0]; after_results; rfl
  rw [e]
  exact shapeCast_apply _ shapeCasts_S4096_S1x4096 (ix2 (0 : Fin 1) j) (ix1 j) (by
    rw [Shape.rowMajor_val_one, Shape.rowMajor_val_two]
    show j.val = 0 * 4096 + j.val
    omega)

end Cert.Hill.Kernel

end
-- ==== Proof.KernelValue.lean ====
/-
  The kernel's result array as one function of its arguments.

  The grid has 16 × 8 points. Point (i, j) reads row block `i` (512 rows) of the two input arrays, row block `j` (512
  rows) of the two weight arrays and column block `j` of the one-row bias, and writes block (i, j) of the [8192, 4096]
  result. So element (p, q) of the block it writes is the Hill response at row 512·i + p and unit 512·j + q of the
  arguments: block (i, j) of ONE array, `out` of the arguments. The 128 blocks tile the result, so the result is that array.
-/
import proofs.«122936_j68178310856894_1_alg».proof.Proof.Gen.KernelIdeal.Value
import proofs.«122936_j68178310856894_1_alg».proof.Proof.KernelPayload
import proofs.«122936_j68178310856894_1_alg».proof.Proof.KernelArrays
import Idealize.ShloMosaic.Lib.Pipeline.Value

noncomputable section

open scoped BigOperators

namespace Cert.Hill.Kernel

open Cert.KernelIdeal Cert.KernelIdeal.Gen Cert.KernelIdeal.Value Idealize.ShloMosaic Idealize.ShloMosaic.TcCoe
open Idealize.ShloMosaic.ValueIdx Idealize.SL.Sem Cert.Hill
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array on a core: `out` of that core's arguments. -/
abbrev result (c : Dev nD) : S8192x4096.Idx → EReal := out (argX m c) (argWc m c) (argWn m c) (argB m c) coeff

/-- How the blocks move with the grid point, decided over the 128 points: the inputs' row block is the result's row
    block, the weights' row block and the bias' column block are the result's column block, and every other block
    index is 0; the result's block indices stay below 16 and 8. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 7 :=
  (by decide +kernel : ∀ t : Fin grid0.N, _)

/-- Every block of the result is some point's. -/
theorem idx_onto : ∀ (q0 : Fin 16) (q1 : Fin 8), ∃ t : Fin cfg0.N, win0_5.index t = ![q0.val, q1.val] :=
  (by decide +kernel : ∀ (q0 : Fin 16) (q1 : Fin 8), ∃ t : Fin grid0.N, win0_5.index t = ![q0.val, q1.val])

/-! ## Each input block, entry by entry, in the arguments -/

theorem blk_xc (c : Dev nD) (t : Fin cfg0.N) (p : Fin 512) (k : Fin 409) (R : Fin 8192)
    (hR : R.val = win0_0.index t (0 : Fin 2) * 512 + p.val) (h1 : win0_0.index t (1 : Fin 2) = 0) :
    iblk m c 0 t (ix2 p k) = argX m c (ix2 R (colC k)) := by
  refine Eq.trans ?_ (entry_xc m c R k)
  show V m c main_v12 (((cfg0.win 0).blk t).view.emb (ix2 p k)) = V m c main_v12 (ix2 R k)
  refine congrArg _ (funext fun a => Fin.ext ?_)
  match a with
  | ⟨0, _⟩ => show win0_0.index t (0 : Fin 2) * 512 + 1 * p.val = R.val; omega
  | ⟨1, _⟩ => show win0_0.index t (1 : Fin 2) * 409 + 1 * k.val = k.val; omega

theorem blk_xn (c : Dev nD) (t : Fin cfg0.N) (p : Fin 512) (k : Fin 3687) (R : Fin 8192)
    (hR : R.val = win0_1.index t (0 : Fin 2) * 512 + p.val) (h1 : win0_1.index t (1 : Fin 2) = 0) :
    iblk m c 1 t (ix2 p k) = argX m c (ix2 R (colN k)) := by
  refine Eq.trans ?_ (entry_xn m c R k)
  show V m c main_v13 (((cfg0.win 1).blk t).view.emb (ix2 p k)) = V m c main_v13 (ix2 R k)
  refine congrArg _ (funext fun a => Fin.ext ?_)
  match a with
  | ⟨0, _⟩ => show win0_1.index t (0 : Fin 2) * 512 + 1 * p.val = R.val; omega
  | ⟨1, _⟩ => show win0_1.index t (1 : Fin 2) * 3687 + 1 * k.val = k.val; omega

theorem blk_wc (c : Dev nD) (t : Fin cfg0.N) (q : Fin 512) (k : Fin 409) (C : Fin 4096)
    (hC : C.val = win0_2.index t (0 : Fin 2) * 512 + q.val) (h1 : win0_2.index t (1 : Fin 2) = 0) :
    iblk m c 2 t (ix2 q k) = argWc m c (ix2 C k) * coeff (ix1 k) := by
  refine Eq.trans ?_ (entry_wc m c C k)
  show V m c main_v10 (((cfg0.win 2).blk t).view.emb (ix2 q k)) = V m c main_v10 (ix2 C k)
  refine congrArg _ (funext fun a => Fin.ext ?_)
  match a with
  | ⟨0, _⟩ => show win0_2.index t (0 : Fin 2) * 512 + 1 * q.val = C.val; omega
  | ⟨1, _⟩ => show win0_2.index t (1 : Fin 2) * 409 + 1 * k.val = k.val; omega

theorem blk_wn (c : Dev nD) (t : Fin cfg0.N) (q : Fin 512) (k : Fin 3687) (C : Fin 4096)
    (hC : C.val = win0_3.index t (0 : Fin 2) * 512 + q.val) (h1 : win0_3.index t (1 : Fin 2) = 0) :
    iblk m c 3 t (ix2 q k) = argWn m c (ix2 C k) := by
  refine Eq.trans ?_ (entry_wn m c C k)
  show V m c main_v11 (((cfg0.win 3).blk t).view.emb (ix2 q k)) = V m c main_v11 (ix2 C k)
  refine congrArg _ (funext fun a => Fin.ext ?_)
  match a with
  | ⟨0, _⟩ => show win0_3.index t (0 : Fin 2) * 512 + 1 * q.val = C.val; omega
  | ⟨1, _⟩ => show win0_3.index t (1 : Fin 2) * 3687 + 1 * k.val = k.val; omega

theorem blk_b (c : Dev nD) (t : Fin cfg0.N) (q : Fin 512) (C : Fin 4096)
    (h0 : win0_4.index t (0 : Fin 2) = 0) (hC : C.val = win0_4.index t (1 : Fin 2) * 512 + q.val) :
    iblk m c 4 t (ix2 (0 : Fin 1) q) = argB m c (ix1 C) := by
  refine Eq.trans ?_ (entry_b m c C)
  show V m c main_v14 (((cfg0.win 4).blk t).view.emb (ix2 (0 : Fin 1) q)) = V m c main_v14 (ix2 (0 : Fin 1) C)
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = C.val; omega

/-! ## From the blocks to the array -/

/-- WHAT POINT `t` WRITES BACK is block `t` of the result array. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S512x409) hz, View.ld_unit_zero (S := S512x3687) hz, View.ld_unit_zero (S := S1x512) hz]
  obtain ⟨e00, e01, e10, e11, e20, e21, e30, e31, e40, e41, b0, b1⟩ := idx_facts t
  funext j
  revert j
  show ∀ j : S512x512.Idx, k0_pay1 (iblk m c 0 t) (iblk m c 1 t) (iblk m c 2 t) (iblk m c 3 t) (iblk m c 4 t) j
    = result m c (((cfg0.win 5).blk t).view.emb j)
  intro j
  obtain ⟨p, q, rfl⟩ : ∃ (p q : Fin 512), j = ix2 p q := ⟨j 0, j 1, eq_ix2 j⟩
  refine (payload_apply _ _ _ _ _ p q).trans ?_
  have hp := p.isLt
  have hq := q.isLt
  obtain ⟨R, hR⟩ : ∃ R : Fin 8192, R.val = win0_5.index t (0 : Fin 2) * 512 + p.val := ⟨⟨_, by omega⟩, rfl⟩
  obtain ⟨C, hC⟩ : ∃ C : Fin 4096, C.val = win0_5.index t (1 : Fin 2) * 512 + q.val := ⟨⟨_, by omega⟩, rfl⟩
  have hemb : ((cfg0.win 5).blk t).view.emb (ix2 p q) = (ix2 R C : S8192x4096.Idx) := funext fun a => Fin.ext (by
    match a with
    | ⟨0, _⟩ => show win0_5.index t (0 : Fin 2) * 512 + 1 * p.val = R.val; omega
    | ⟨1, _⟩ => show win0_5.index t (1 : Fin 2) * 512 + 1 * q.val = C.val; omega)
  rw [hemb]
  have h0 : ∀ k : Fin 409, iblk m c 0 t (ix2 p k) = argX m c (ix2 R (colC k)) :=
    fun k => blk_xc m c t p k R (by omega) e01
  have h1 : ∀ k : Fin 3687, iblk m c 1 t (ix2 p k) = argX m c (ix2 R (colN k)) :=
    fun k => blk_xn m c t p k R (by omega) e11
  have h2 : ∀ k : Fin 409, iblk m c 2 t (ix2 q k) = argWc m c (ix2 C k) * coeff (ix1 k) :=
    fun k => blk_wc m c t q k C (by omega) e21
  have h3 : ∀ k : Fin 3687, iblk m c 3 t (ix2 q k) = argWn m c (ix2 C k) :=
    fun k => blk_wn m c t q k C (by omega) e31
  have h4 : iblk m c 4 t (ix2 (0 : Fin 1) q) = argB m c (ix1 C) := blk_b m c t q C e40 (by omega)
  simp only [h0, h1, h2, h3, h4]
  rfl

/-- An index of the result is in point `t`'s block iff each coordinate is in the block's range on its axis. -/
theorem mem_blk (t : Fin cfg0.N) (i : S8192x4096.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v15).slice (win0_5.rect t)).set ↔ _
  rw [View.set_slice_whole, Rect.mem_set_unit]
  exact Iff.rfl

/-- THE BLOCKS TILE THE RESULT: the element at row `r`, unit `u` is in the block of the point with block indices
    (r / 512, u / 512). -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 512 ≤ (i 1).val ∧ (i 1).val < win0_5.index t (1 : Fin 2) * 512 + 512
    omega

/-- THE RESULT ARRAY after the run is `out` of the arguments. -/
theorem final (c : Dev nD) : (dats m 0 c).arrAt 5 cfg0.N = result m c :=
  (dats m 0 c).arrAt_eq_of_cover 5 (result m c) (fun t _ => flushed_eq m c t) cover

/-- THE RUN, READ: the kernel terminates with its result array at `out` of its arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Hill.Kernel

end
-- ==== Proof.RefHill.lean ====
/-
  The reference program's result is the Hill response in its own spelling.

  Read one operation at a time, the reference's result at row `r` and unit `c` is
    pow(p, 2.0) / (0.25 + pow(p, 2.0)),   p = Σ k, (x[r, k] · coeff[k]) · Wc[c, k] + (1 / (1 + e^(−v)) − 1),
    v = Σ k, x[r, 409 + k] · Wn[c, k] + b[c],
  where `coeff` is the coefficient vector the program builds (a vector of twos with its two end entries set to one). Its
  slices, transposes and broadcasts only move indices: each composed index map is identified here with the plain
  coordinates (r, k), (c, k), k, c it stands for.
-/
import proofs.«122936_j68178310856894_1_alg».proof.Proof.Gen.ReferenceIdeal.Read
import proofs.«122936_j68178310856894_1_alg».proof.Proof.Hill
import proofs.«122936_j68178310856894_1_alg».proof.Proof.Coeff

noncomputable section

open scoped BigOperators

namespace Cert.Hill.Ref

open Cert.ReferenceIdeal Cert.ReferenceIdeal.Read Idealize.ShloMosaic Idealize.ShloMosaic.ValueIdx Cert.Hill

/-- The coefficient vector as the reference builds it … -/
abbrev refCoeff : (⟨1, ![409]⟩ : Shape).Idx → EReal := val_main_v19 (F := Ideal)

/-- … is the coefficient vector: the same two scatters into the same vector of twos. -/
theorem refCoeff_eq : refCoeff = coeff := rfl

/-- THE REFERENCE'S RESULT, index by index, is the Hill response in the reference's spelling. -/
theorem result_eq (x0 : (⟨S8192x4096, .f32⟩ : BufTy).Contents (Elt Ideal)) (x1 : (⟨S4096x409, .f32⟩ : BufTy).Contents (Elt Ideal))
    (x2 : (⟨S4096x3687, .f32⟩ : BufTy).Contents (Elt Ideal)) (x3 : (⟨S4096, .f32⟩ : BufTy).Contents (Elt Ideal)) :
    val_main_v30 (F := Ideal) x0 x1 x2 x3 = outPow x0 x1 x2 x3 coeff := by
  rw [← refCoeff_eq]
  funext i
  obtain ⟨r, c, rfl⟩ : ∃ (r : Fin 8192) (c : Fin 4096), i = ix2 r c := ⟨i 0, i 1, eq_ix2 i⟩
  -- the composed index maps, as coordinates
  have e1 : ∀ k : Fin 409, idx_main_v0 (lidx_main_v24 (ix2 r c) k) = ix2 r (colC k) := fun k =>
    funext fun a => Fin.ext (by match a with | ⟨0, _⟩ => rfl | ⟨1, _⟩ => rfl)
  have e2 : ∀ k : Fin 409, idx_main_v20 (idx_main_v21 (lidx_main_v24 (ix2 r c) k)) = ix1 k := fun k =>
    funext fun a => Fin.ext (by match a with | ⟨0, _⟩ => rfl)
  have e3 : ∀ k : Fin 409, idx_main_v23 (ridx_main_v24 (ix2 r c) k) = ix2 c k := fun k =>
    funext fun a => Fin.ext (by match a with | ⟨0, _⟩ => rfl | ⟨1, _⟩ => rfl)
  have e4 : ∀ k : Fin 3687, idx_main_v1 (lidx_main_v3 (ix2 r c) k) = ix2 r (colN k) := fun k =>
    funext fun a => Fin.ext (by match a with | ⟨0, _⟩ => rfl | ⟨1, _⟩ => rfl)
  have e5 : ∀ k : Fin 3687, idx_main_v2 (ridx_main_v3 (ix2 r c) k) = ix2 c k := fun k =>
    funext fun a => Fin.ext (by match a with | ⟨0, _⟩ => rfl | ⟨1, _⟩ => rfl)
  have e6 : idx_main_v4 (idx_main_v5 (ix2 r c)) = ix1 c :=
    funext fun a => Fin.ext (by match a with | ⟨0, _⟩ => rfl)
  simp only [val_main_v30_apply, val_main_v29_apply, val_main_v28_apply, val_main_cst_7_apply, val_main_v27_apply,
    val_main_v26_apply, val_main_cst_6_apply, val_main_v25_apply, val_main_v24_apply, val_main_v22_apply,
    val_main_v0_apply, val_main_v21_apply, val_main_v20_apply, val_main_v23_apply, val_main_v14_apply,
    val_main_v13_apply, val_main_cst_1_apply, val_main_v12_apply, val_main_v11_apply, val_main_cst_0_apply,
    val_main_v10_apply, val_main_v9_apply, val_main_cst_apply, val_main_v8_apply, val_main_v7_apply,
    val_main_v6_apply, val_main_v3_apply, val_main_v1_apply, val_main_v2_apply, val_main_v5_apply, val_main_v4_apply,
    e1, e2, e3, e4, e5, e6,
    Ideal.hostDivf_def, Ideal.hostPowf_def, Ideal.addf_def, Ideal.subf_def, Ideal.mulf_def, Ideal.hostUnary_exp_def,
    Ideal.hostNegf_def, Ideal.negf_def, Ideal.ofBits_def, Cert.HillConsts.ofBits_one]
  rfl

end Cert.Hill.Ref

end
-- ==== Proof.Finite.lean ====
/-
  From the precondition to real entries.

  The precondition says, of each of the four argument arrays, that ALL its entries have absolute value below +∞, and
  takes the conjunction of the four. A conjunction of bits that is 1 has every conjunct 1; an "all" over an array that
  is 1 has a 1 at every entry; and an extended real with |x| < +∞ is neither +∞ nor −∞ (there |x| = +∞), so it is a
  real number.
-/
import proofs.«122936_j68178310856894_1_alg».proof.Pre_finite_inputs
import proofs.«122936_j68178310856894_1_alg».proof.Proof.LibRealSums
import Idealize.ShloMosaic.Lib.ReduceAll
import Idealize.ShloMosaic.Lib.ValueIdx
import Idealize.ShloMosaic.PureOps.Ideal.Laws

noncomputable section

namespace Cert.Hill.Finite

open Idealize.ShloMosaic Cert.Pre_finite_inputs Cert.Lib.RealSums

instance : Subsingleton S_.Idx := ⟨fun a b => funext fun d => d.elim0⟩

/-- The pattern the precondition compares against denotes +∞. -/
theorem ofBits_inf : Ideal.ofBits .f32 0x7F800000#32 = ⊤ := by simp [Ideal.ofBits, Ideal.ieee]

/-- An extended real whose absolute value compares below +∞ is a real number. -/
theorem isReal_of_abs_lt (x : EReal)
    (h : FloatOps.cmpf (F := Ideal) (φ := .f32) .olt (FloatOps.hostAbsf (F := Ideal) (φ := .f32) x)
      (FloatOps.ofBits .f32 0x7F800000#32) = 1#1) : IsReal x := by
  rw [Ideal.hostAbsf_def, Ideal.cmpf_def, Ideal.absf_def, Ideal.ofBits_def, ofBits_inf] at h
  induction x using EReal.rec with
  | coe r => exact isReal_coe r
  | bot => exact absurd h (by simp [Ideal.cmp])
  | top => exact absurd h (by simp [Ideal.cmp])

variable [Facts]

/-- Under the precondition every entry of every argument array is a real number. -/
theorem real_inputs (X : FVec Ideal S8192x4096 .f32) (W1 : FVec Ideal S4096x409 .f32) (W2 : FVec Ideal S4096x3687 .f32)
    (B : FVec Ideal S4096 .f32) (h : fn (F := Ideal) X W1 W2 B = fun _ => 1#1) :
    (∀ i, IsReal (X i)) ∧ (∀ i, IsReal (W1 i)) ∧ (∀ i, IsReal (W2 i)) ∧ (∀ i, IsReal (B i)) := by
  have h0 := congrFun h ValueIdx.ix0
  dsimp only [fn, fn_part1, Idealize.ShloMosaic.andi] at h0
  obtain ⟨h123, h4⟩ := IntOp.andi_eq_one.1 h0
  obtain ⟨h12, h3⟩ := IntOp.andi_eq_one.1 h123
  obtain ⟨h1, h2⟩ := IntOp.andi_eq_one.1 h12
  exact ⟨fun i => isReal_of_abs_lt _ (Host.reduce_andi_all _ _ _ _ _ h1 i),
    fun i => isReal_of_abs_lt _ (Host.reduce_andi_all _ _ _ _ _ h2 i),
    fun i => isReal_of_abs_lt _ (Host.reduce_andi_all _ _ _ _ _ h3 i),
    fun i => isReal_of_abs_lt _ (Host.reduce_andi_all _ _ _ _ _ h4 i)⟩

end Cert.Hill.Finite

end
-- ==== Proof.lean ====
/- The kernel and its reference compute one function of the arguments `x`, `Wc`, `Wn`, `b`, on the extended reals, wherever the
   arguments are finite.

   Both compute, at row `r` and unit `c`, the Hill response p² / (¼ + p²) of the pre-activation
     p = Σ k < 409, x[r, k] · coeff[k] · Wc[c, k]  +  (logistic (Σ k < 3687, x[r, 409 + k] · Wn[c, k] + b[c]) − 1),
   where `coeff` is the vector (1, 2, …, 2, 1). They differ in three spellings. The kernel multiplies `coeff` into the weights
   before its region and the reference into the inputs: products commute and associate. The kernel uses the logistic function,
   the reference 1 / (1 + e^(−v)): the definition. The kernel squares by p · p, the reference by the power with exponent 2.0:
   equal at every real number (and at +∞), different at −∞ — so this step needs p real, which the precondition gives: with real
   `x`, `Wc` and coefficients the first sum is a finite sum of real products, and the logistic function is real-valued.
   The kernel's result array is assembled from its 16 × 8 blocks, each the body's stored value of the blocks it reads; the
   reference's is read one operation at a time. The narrowing of float formats before the kernel's region is the identity on
   extended reals. The idealized kernel is the kernel's own operations read on the extended reals, none replaced, so the
   statement that it idealizes the kernel has no conjunct to prove. -/
import proofs.«122936_j68178310856894_1_alg».proof.Defs
import proofs.«122936_j68178310856894_1_alg».proof.Proof.Gen.Kernel
import proofs.«122936_j68178310856894_1_alg».proof.Proof.Gen.Kernel.Skeleton
import proofs.«122936_j68178310856894_1_alg».proof.Proof.Gen.Kernel.Launch
import proofs.«122936_j68178310856894_1_alg».proof.Proof.Gen.Kernel.Points
import proofs.«122936_j68178310856894_1_alg».proof.Proof.Gen.Kernel.Frame
import proofs.«122936_j68178310856894_1_alg».proof.Proof.Gen.KernelIdeal
import proofs.«122936_j68178310856894_1_alg».proof.Proof.Gen.KernelIdeal.Skeleton
import proofs.«122936_j68178310856894_1_alg».proof.Proof.Gen.KernelIdeal.Launch
import proofs.«122936_j68178310856894_1_alg».proof.Proof.Gen.KernelIdeal.Points
import proofs.«122936_j68178310856894_1_alg».proof.Proof.Gen.KernelIdeal.Frame
import proofs.«122936_j68178310856894_1_alg».proof.Proof.Gen.ReferenceIdeal
import proofs.«122936_j68178310856894_1_alg».proof.Proof.Gen.Pre_finite_inputs
import proofs.«122936_j68178310856894_1_alg».proof.Proof.Gen.KernelIdeal.Value
import proofs.«122936_j68178310856894_1_alg».proof.Proof.Gen.ReferenceIdeal.Run
import proofs.«122936_j68178310856894_1_alg».proof.Proof.Gen.ReferenceIdeal.Read
import proofs.«122936_j68178310856894_1_alg».proof.Proof.KernelValue
import proofs.«122936_j68178310856894_1_alg».proof.Proof.RefHill
import proofs.«122936_j68178310856894_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the arguments finite, the idealized kernel ends with its result array at
    the Hill response of the arguments, and the reference at the same array in its own spelling; the two spellings are
    one array because the arguments are real. -/
theorem algebraic : Cert.algebraic_KernelIdeal_ReferenceIdeal := by
  intro m ρ m' ρ' hpre hagree
  refine ⟨fun c => Cert.Hill.Kernel.result m c, Cert.Hill.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hwc, -, -⟩ := Cert.Hill.Finite.real_inputs _ _ _ _ (hpre c)
  rw [Cert.ReferenceIdeal.Read.val_main_v30_eq, Cert.Hill.Ref.result_eq, (hagree c).1, (hagree c).2.1, (hagree c).2.2.1,
    (hagree c).2.2.2]
  exact Cert.Hill.outPow_eq_out _ _ _ _ _ hx hwc Cert.Hill.isReal_coeff

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
